-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x128 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S6400x64 : Shape := ⟨2, ![6400, 64]⟩
abbrev S6400x128 : Shape := ⟨2, ![6400, 128]⟩
abbrev S100000 : Shape := ⟨1, ![100000]⟩
abbrev S100000x1 : Shape := ⟨2, ![100000, 1]⟩

abbrev nBuf : Space → Nat
  | .hbm => 49
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .i1⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S_, .f32⟩
  | .hbm, ⟨46, _⟩ => ⟨S100000x64, .i1⟩
  | .hbm, ⟨47, _⟩ => ⟨S100000x64, .f32⟩
  | .hbm, ⟨48, _⟩ => ⟨S100000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S64x128, .f32⟩
  | .local _ .vmem, ⟨5, _⟩ => ⟨S1x64, .f32⟩
  | .local _ .vmem, ⟨6, _⟩ => ⟨S6400x64, .f32⟩
  | .local _ .vmem, ⟨7, _⟩ => ⟨S6400x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  concatenates_S6400x64_S6400x64_S6400x128_d1 : Shape.Concatenates [S6400x64, S6400x64] S6400x128 1
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S6400x128_S64x128_S6400x64_1_1_0_0_n_n_wf : DotDims.WF S6400x128 S64x128 S6400x64 [1] [1] [0] [0] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x64.size a ≤ S1600000x64.size a
  hwx0_4 : ∀ i : grid0.Coords, EltTy.bits .f32 = 32 ∨ (Rect.block (s := S1600000x64) S6400x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x128_S64x128_S6400x64_1_1_0_0_n_n : DotDims S6400x128 S64x128 S6400x64 where
  lhsContracting := [1]
  rhsContracting := [1]
  lhsNonContracting := [0]
  rhsNonContracting := [0]
  lhsBatch := []
  rhsBatch := []
  wf := dot_S6400x128_S64x128_S6400x64_1_1_0_0_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_v6) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S6400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S100000 : Shape := ⟨1, ![100000]⟩
abbrev S100000x1 : Shape := ⟨2, ![100000, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S1600000x128, .f32⟩
  | .hbm, ⟨25, _⟩ => ⟨S1600000x64, .f32⟩
  | .hbm, ⟨26, _⟩ => ⟨S1x64, .f32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .i1⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S_, .f32⟩
  | .hbm, ⟨50, _⟩ => ⟨S100000x64, .i1⟩
  | .hbm, ⟨51, _⟩ => ⟨S100000x64, .f32⟩
  | .hbm, ⟨52, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x128_S64x128_S1600000x64_1_1_0_0_n_n_wf : DotDims.WF S1600000x128 S64x128 S1600000x64 [1] [1] [0] [0] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S64x128_S1600000x64_1_1_0_0_n_n : DotDims S1600000x128 S64x128 S1600000x64 where
  lhsContracting := [1]
  rhsContracting := [1]
  lhsNonContracting := [0]
  rhsNonContracting := [0]
  lhsBatch := []
  rhsBatch := []
  wf := dot_S1600000x128_S64x128_S1600000x64_1_1_0_0_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.HostSides.lean ====
/-
  The host work the two programs share around the per-edge linear map.

  Before it, the rows of the feature matrix are gathered at an index vector, a negative index first wrapped once by the
  row count 100 000 (numpy's convention): `rows`. After it, each vertex takes the mean of the edge outputs over the edges
  whose target it is: the edge rows summed by target, the edges counted by target, and the quotient of the sum by
  max(count, 1) where the count is positive, zero elsewhere: `vertexMean`. Both programs apply exactly these operations
  to the same index vectors, so it is enough to know that they feed them equal edge outputs; neither function is ever
  opened.
-/
import proofs.«112220_j17609365914509_1_alg».proof.ReferenceIdeal
import proofs.«112220_j17609365914509_1_alg».proof.Proof.Gen.ReferenceIdeal
import Idealize.ShloMosaic.PureOps.Ideal

noncomputable section

namespace Cert.ReferenceIdeal.EdgeValue

open Cert.ReferenceIdeal Cert.ReferenceIdeal.Facts₀ Cert.ReferenceIdeal.Facts Idealize.ShloMosaic

/-- The feature rows at the indices `ids` (a negative index wrapped by the row count before the gather). -/
def rows (x0 : (⟨S100000x64, .f32⟩ : BufTy).Contents (Elt Ideal)) (ids : (⟨S1600000, .i32⟩ : BufTy).Contents (Elt Ideal)) :
    (⟨S1600000x64, .f32⟩ : BufTy).Contents (Elt Ideal) :=
  Host.gather gather_S100000x64_S1600000x1_S1600000x64_1_0_n_n_0_1_164 x0 (broadcastInDim S1600000x1 ![0] bcast_S1600000_S1600000x1_0 (select (cmpi .slt ids (broadcastInDim S1600000 ![] bcast_S_S1600000 (constantI S_ 32 0#32))) (addi ids (broadcastInDim S1600000 ![] bcast_S_S1600000 (constantI S_ 32 100000#32))) ids))

/-- The per-vertex mean of the edge outputs `y` over the edges with target `tgt`; zero at a vertex no edge targets. -/
def vertexMean (tgt : (⟨S1600000, .i32⟩ : BufTy).Contents (Elt Ideal)) (y : (⟨S1600000x64, .f32⟩ : BufTy).Contents (Elt Ideal)) :
    (⟨S100000x64, .f32⟩ : BufTy).Contents (Elt Ideal) :=
  select (broadcastInDim S100000x64 ![0, 1] bcast_S100000x1_S100000x64_0_1 (cmpf (F := Ideal) .ogt (broadcastInDim S100000x1 ![0] bcast_S100000_S100000x1_0 (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 tgt) (broadcastInDim S1600000 ![] bcast_S_S1600000 (constant (F := Ideal) S_ .f32 0x3F800000#32)))) (broadcastInDim S100000x1 ![] bcast_S_S100000x1 (constant (F := Ideal) S_ .f32 0x00000000#32)))) (Host.divf (F := Ideal) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 tgt) y) (broadcastInDim S100000x64 ![0, 1] bcast_S100000x1_S100000x64_0_1 (maximumf (F := Ideal) (broadcastInDim S100000x1 ![0] bcast_S100000_S100000x1_0 (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 tgt) (broadcastInDim S1600000 ![] bcast_S_S1600000 (constant (F := Ideal) S_ .f32 0x3F800000#32)))) (broadcastInDim S100000x1 ![] bcast_S_S100000x1 (constant (F := Ideal) S_ .f32 0x3F800000#32))))) (broadcastInDim S100000x64 ![] bcast_S_S100000x64 (id (constant (F := Ideal) S_ .f32 0x00000000#32)))

end Cert.ReferenceIdeal.EdgeValue

end
-- ==== Proof.LibRowJoin.lean ====
/-
  Rows joined side by side, read at an index.

  Joining arrays of equal row count along the column axis lays their rows end to end: row `p` of the result is row
  `p` of the first array, then row `p` of the second, and so on. This file names the joined row of two or three
  rows (`join2`, `join3`), reads a two- or three-piece concatenation of rank-2 arrays along axis 1 at `(p, q)` as
  that joined row at `q`, and states the one law of sums such a join obeys: a sum over a joined row of products
  with a second factor is the sum over the first row plus the sum over the second, the second factor read at
  the matching positions. All statements are general in the extents.
-/
import Idealize.ShloMosaic.Lib.Pipeline.Value
import Idealize.ShloMosaic.Lib.ValueIdx

noncomputable section

namespace Cert.Lib.RowJoin

open Idealize.ShloMosaic Idealize.ShloMosaic.ValueIdx

variable {α : Type}

/-- Two rows laid end to end: position `q < n1` reads the first row at `q`, position `q ≥ n1` the second at `q - n1`. -/
def join2 {n1 n2 N : ℕ} (hN : N = n1 + n2) (u : Fin n1 → α) (v : Fin n2 → α) : Fin N → α := fun q =>
  if h : q.val < n1 then u ⟨q.val, h⟩ else v ⟨q.val - n1, by have := q.isLt; omega⟩

/-- Three rows laid end to end. -/
def join3 {n1 n2 n3 N : ℕ} (hN : N = n1 + n2 + n3) (u : Fin n1 → α) (v : Fin n2 → α) (w : Fin n3 → α) : Fin N → α := fun q =>
  if h : q.val < n1 then u ⟨q.val, h⟩
  else if h' : q.val < n1 + n2 then v ⟨q.val - n1, by omega⟩
  else w ⟨q.val - (n1 + n2), by have := q.isLt; omega⟩

theorem join2_left {n1 n2 N : ℕ} (hN : N = n1 + n2) (u : Fin n1 → α) (v : Fin n2 → α) (k : Fin n1) :
    join2 hN u v ⟨k.val, by have := k.isLt; omega⟩ = u k := by
  unfold join2
  rw [dif_pos (show k.val < n1 from k.isLt)]

theorem join2_right {n1 n2 N : ℕ} (hN : N = n1 + n2) (u : Fin n1 → α) (v : Fin n2 → α) (k : Fin n2) :
    join2 hN u v ⟨n1 + k.val, by have := k.isLt; omega⟩ = v k := by
  unfold join2
  rw [dif_neg (show ¬ n1 + k.val < n1 by omega)]
  exact congrArg v (Fin.ext (by show n1 + k.val - n1 = k.val; omega))

/-- A sum over the positions of a joined row, each term a product with a second factor, splits into the sum over
    the first row and the sum over the second: only commutativity and associativity of addition are used, so this
    holds in any commutative monoid with a multiplication (the extended reals included, infinities and all). -/
theorem sum_join2_mul {M : Type} [AddCommMonoid M] [Mul M] {n1 n2 N : ℕ} (hN : N = n1 + n2) (u : Fin n1 → M) (v : Fin n2 → M)
    (f : Fin N → M) :
    ∑ q : Fin N, join2 hN u v q * f q
      = (∑ k : Fin n1, u k * f ⟨k.val, by have := k.isLt; omega⟩) + ∑ k : Fin n2, v k * f ⟨n1 + k.val, by have := k.isLt; omega⟩ := by
  subst hN
  rw [Fin.sum_univ_add]
  refine congrArg₂ (· + ·) (Finset.sum_congr rfl fun k _ => ?_) (Finset.sum_congr rfl fun k _ => ?_)
  · exact congrArg (· * _) (join2_left rfl u v k)
  · exact congrArg (· * _) (join2_right rfl u v k)

/-- Two rank-2 arrays of `R` rows joined along axis 1: entry `(p, q)` is the joined row `p` at `q`. -/
theorem concat2_cols_apply {R n1 n2 N : ℕ} (hN : N = n1 + n2) (x1 : (⟨2, ![R, n1]⟩ : Shape).Idx → α) (x2 : (⟨2, ![R, n2]⟩ : Shape).Idx → α)
    (h : Shape.Concatenates [(⟨2, ![R, n1]⟩ : Shape), ⟨2, ![R, n2]⟩] ⟨2, ![R, N]⟩ 1) (p : Fin R) (q : Fin N) :
    concatenate ⟨2, ![R, N]⟩ 1 [⟨⟨2, ![R, n1]⟩, x1⟩, ⟨⟨2, ![R, n2]⟩, x2⟩] h (ix2 p q)
      = join2 hN (fun k => x1 (ix2 p k)) (fun k => x2 (ix2 p k)) q := by
  unfold join2
  by_cases hq : q.val < n1
  · rw [dif_pos hq]
    refine concatenate_pair_apply_left 1 x1 x2 h (ix2 p q) rfl (ix2 p ⟨q.val, hq⟩) fun b => ?_
    match b with
    | ⟨0, _⟩ => rfl
    | ⟨1, _⟩ => rfl
  · rw [dif_neg hq]
    refine concatenate_pair_apply_right 1 x1 x2 h (ix2 p q) rfl rfl (ix2 p ⟨q.val - n1, by have := q.isLt; omega⟩) (fun b hb => ?_) ?_
    · match b with
      | ⟨0, _⟩ => rfl
      | ⟨1, _⟩ => exact absurd rfl hb
    · show q.val - n1 + n1 = q.val
      omega

/-- Three rank-2 arrays of `R` rows joined along axis 1: entry `(p, q)` is the joined row `p` at `q`. -/
theorem concat3_cols_apply {R n1 n2 n3 N : ℕ} (hN : N = n1 + n2 + n3) (x1 : (⟨2, ![R, n1]⟩ : Shape).Idx → α)
    (x2 : (⟨2, ![R, n2]⟩ : Shape).Idx → α) (x3 : (⟨2, ![R, n3]⟩ : Shape).Idx → α)
    (h : Shape.Concatenates [(⟨2, ![R, n1]⟩ : Shape), ⟨2, ![R, n2]⟩, ⟨2, ![R, n3]⟩] ⟨2, ![R, N]⟩ 1) (p : Fin R) (q : Fin N) :
    concatenate ⟨2, ![R, N]⟩ 1 [⟨⟨2, ![R, n1]⟩, x1⟩, ⟨⟨2, ![R, n2]⟩, x2⟩, ⟨⟨2, ![R, n3]⟩, x3⟩] h (ix2 p q)
      = join3 hN (fun k => x1 (ix2 p k)) (fun k => x2 (ix2 p k)) (fun k => x3 (ix2 p k)) q := by
  unfold join3
  by_cases hq : q.val < n1
  · rw [dif_pos hq]
    refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 0 (Nat.zero_lt_succ _) ⟨2, ![R, n1]⟩ x1 rfl rfl 0 rfl (ix2 p ⟨q.val, hq⟩) (fun b hb => ?_) ?_
    · match b with
      | ⟨0, _⟩ => rfl
      | ⟨1, _⟩ => exact absurd rfl hb
    · show 0 + q.val = q.val
      omega
  · rw [dif_neg hq]
    by_cases hq' : q.val < n1 + n2
    · rw [dif_pos hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 1 (Nat.succ_lt_succ (Nat.zero_lt_succ _)) ⟨2, ![R, n2]⟩ x2 rfl rfl n1 (by simp) (ix2 p ⟨q.val - n1, by omega⟩) (fun b hb => ?_) ?_
      · match b with
        | ⟨0, _⟩ => rfl
        | ⟨1, _⟩ => exact absurd rfl hb
      · show n1 + (q.val - n1) = q.val
        omega
    · rw [dif_neg hq']
      refine concatenate_apply_piece (t := ⟨2, ![R, N]⟩) 1 ([⟨⟨2, ![R, n1]⟩, x1⟩, ⟨⟨2, ![R, n2]⟩, x2⟩, ⟨⟨2, ![R, n3]⟩, x3⟩] : List ((s : Shape) × (s.Idx → α))) h (ix2 p q) 2 (Nat.succ_lt_succ (Nat.succ_lt_succ (Nat.zero_lt_succ _))) ⟨2, ![R, n3]⟩ x3 rfl rfl (n1 + n2) (by simp) (ix2 p ⟨q.val - (n1 + n2), by have := q.isLt; omega⟩) (fun b hb => ?_) ?_
      · match b with
        | ⟨0, _⟩ => rfl
        | ⟨1, _⟩ => exact absurd rfl hb
      · show n1 + n2 + (q.val - (n1 + n2)) = q.val
        omega

end Cert.Lib.RowJoin

end
-- ==== Proof.EdgeLinear.lean ====
/-
  The per-edge linear map of an edge convolution, as one function of its arrays.

  For an edge e with target features a(e,·) and neighbour features b(e,·), 64 channels each, the layer's input row is
  the target's features followed by the difference neighbour − target (128 entries), and output channel o is the inner
  product of that row with row o of the 64 × 128 weight matrix, plus the bias of channel o:
      y(e,o) = Σ_{k<128} [ a(e,·) ‖ b(e,·) − a(e,·) ](k) · w(o,k) + bias(o).
  An entry of y depends on row e of the two feature arrays only (`edgeLinear_apply`), so a block of consecutive edges
  is computed from the same block of rows, whatever the tiling. Both programs compute this sum in this order, so
  nothing here needs the entries to be finite.
-/
import Idealize.ShloMosaic.PureOps.Ideal
import Idealize.ShloMosaic.Lib.ValueIdx
import proofs.«112220_j17609365914509_1_alg».proof.Proof.LibRowJoin

noncomputable section

namespace Cert.EdgeLinear

open Idealize.ShloMosaic Idealize.ShloMosaic.ValueIdx Cert.Lib.RowJoin

/-- Output channel `o` of one edge, from the edge's two feature rows `ra` (target) and `rb` (neighbour). -/
def edgeOut (ra rb : Fin 64 → EReal) (w : (⟨2, ![64, 128]⟩ : Shape).Idx → EReal) (bias : Fin 64 → EReal) (o : Fin 64) : EReal :=
  (∑ k : Fin 128, join2 (n1 := 64) (n2 := 64) (N := 128) rfl ra (fun c => rb c - ra c) k * w (ix2 o k)) + bias o

/-- The whole output array over `E` edges. -/
def edgeLinear {E : ℕ} (a b : (⟨2, ![E, 64]⟩ : Shape).Idx → EReal) (w : (⟨2, ![64, 128]⟩ : Shape).Idx → EReal)
    (bias : Fin 64 → EReal) : (⟨2, ![E, 64]⟩ : Shape).Idx → EReal :=
  fun i => edgeOut (fun c => a (ix2 (i 0) c)) (fun c => b (ix2 (i 0) c)) w bias (i 1)

/-- Entry (e, o) reads row e of the two feature arrays. -/
theorem edgeLinear_apply {E : ℕ} (a b : (⟨2, ![E, 64]⟩ : Shape).Idx → EReal) (w : (⟨2, ![64, 128]⟩ : Shape).Idx → EReal)
    (bias : Fin 64 → EReal) (e : Fin E) (o : Fin 64) :
    edgeLinear a b w bias (ix2 e o) = edgeOut (fun c => a (ix2 e c)) (fun c => b (ix2 e c)) w bias o := rfl

end Cert.EdgeLinear

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.LibDotTransposedRhs.lean ====
/-
  A contraction with the right operand transposed, read at an output index, over the extended reals.

  For the dimension numbers "contract the left operand's axis 1 with the right operand's axis 1, no batch axis"
  (an [M,K] array against an [N,K] array: rows against rows, as a query block meets a key block), entry (p, g) of the
  product into a zero accumulator is the sum over k < K of the left operand at (p, k) times the right operand at
  (g, k). At the ideal instance nothing rounds and the order of a finite sum is immaterial. The statements are general
  in the three extents.
-/
import Idealize.ShloMosaic.PureOps.Ideal.Laws
import Idealize.ShloMosaic.Lib.ValueIdx

noncomputable section

namespace Cert.DotTransposedRhs

open Idealize.ShloMosaic Idealize.ShloMosaic.ValueIdx

variable (M K N : ℕ)

/-- Axis 0 of the left operand's index is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- Axis 1 of the left operand's index is the contraction position. -/
theorem lhs_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- Axis 0 of the right operand's index is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Axis 1 of the right operand's index is the contraction position. -/
theorem rhs_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum over its one-axis index shape is the sum over k < K of row entry times row entry. -/
theorem sum_eq (l : (⟨2, ![M, K]⟩ : Shape).Idx → EReal) (r : (⟨2, ![N, K]⟩ : Shape).Idx → EReal) (p : Fin M) (g : Fin N) :
    ∑ q : (DotDims.transposedRhs M K N).contr.Idx,
        l ((DotDims.transposedRhs M K N).lhsIdx (ix2 p g) q) * r ((DotDims.transposedRhs M K N).rhsIdx (ix2 p g) q)
      = ∑ k : Fin K, l (ix2 p k) * r (ix2 g k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p g) ((contrEquiv1 (DotDims.transposedRhs M K N) K rfl rfl).symm k) = ix2 p k :=
    funext fun a => Fin.ext (by
      match a with
      | ⟨0, _⟩ => exact lhs_row M K N _ _
      | ⟨1, _⟩ => exact (lhs_contr M K N _ _).trans hk)
  have er : (DotDims.transposedRhs M K N).rhsIdx (ix2 p g) ((contrEquiv1 (DotDims.transposedRhs M K N) K rfl rfl).symm k) = ix2 g k :=
    funext fun a => Fin.ext (by
      match a with
      | ⟨0, _⟩ => exact rhs_row M K N _ _
      | ⟨1, _⟩ => exact (rhs_contr M K N _ _).trans hk)
  rw [el, er]

variable {M K N}

/-- A matrix unit's product with these dimension numbers into the zero accumulator, at entry (p, g). -/
theorem matmul_zero_apply {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (p : Fin M) (g : Fin N) :
    matmul (F := Ideal) d none l r (constant ⟨2, ![M, N]⟩ .f32 0x00000000#32) (ix2 p g)
      = ∑ k : Fin K, l (ix2 p k) * r (ix2 g k) := by
  subst hd
  simp only [matmul]
  rw [Ideal.matmul_constant_zero_apply]
  exact sum_eq M K N l r p g

end Cert.DotTransposedRhs

end
-- ==== Proof.LibHostDotTransposedRhs.lean ====
/-
  The host's contraction with the right operand transposed, read at an output index, over the extended reals.

  For the dimension numbers "contract the left operand's axis 1 with the right operand's axis 1, no batch axis" (an
  [M,K] array against an [N,K] array: what `einsum('ec,oc->eo')` lowers to) entry (p, g) of the host's `dot_general`
  is, at the ideal instance, the sum over k < K of the left operand at (p, k) times the right operand at (g, k): the same
  sum a matrix unit's product with these dimension numbers into a zero accumulator computes. General in the three
  extents and in the precision attribute (at the ideal instance nothing rounds).
-/
import Idealize.ShloMosaic.PureOps.Ideal.Laws
import Idealize.ShloMosaic.Lib.ValueIdx
import proofs.«112220_j17609365914509_1_alg».proof.Proof.LibDotTransposedRhs

noncomputable section

namespace Cert.Lib.HostDotTransposedRhs

open Idealize.ShloMosaic Idealize.ShloMosaic.ValueIdx

/-- The host's `dot_general` of an [M,K] array with an [N,K] array, contracting axis 1 with axis 1, at entry (p, g). -/
theorem hostDot_apply {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (p : Fin M) (g : Fin N) :
    Host.dotGeneral (F := Ideal) d prec l r (ix2 p g) = ∑ k : Fin K, l (ix2 p k) * r (ix2 g k) := by
  subst hd
  show FloatOps.dotGeneral (DotDims.transposedRhs M K N) prec .single l r (ix2 p g) = _
  rw [Ideal.dotGeneral_apply]
  exact Cert.DotTransposedRhs.sum_eq M K N l r p g

end Cert.Lib.HostDotTransposedRhs

end
-- ==== Proof.RefEdgeLinear.lean ====
/-
  The reference's per-edge output is the edge-linear map.

  The reference forms the 128-wide rows [ target ‖ neighbour − target ] for all 1 600 000 edges at once, contracts them
  with the weight matrix over the 128 columns (rows of the one against rows of the other), and adds the bias spread over
  the rows as a [1,64] row. Read at entry (e, o): the contraction is the sum over k < 128 of the joined row e at k times
  the weight at (o, k); the bias term is the bias at o.
-/
import proofs.«112220_j17609365914509_1_alg».proof.ReferenceIdeal
import Idealize.ShloMosaic.PureOps.Ideal.Laws
import Idealize.ShloMosaic.Lib.Pipeline.Value
import Idealize.ShloMosaic.Lib.ValueIdx
import proofs.«112220_j17609365914509_1_alg».proof.Proof.EdgeLinear
import proofs.«112220_j17609365914509_1_alg».proof.Proof.LibRowJoin
import proofs.«112220_j17609365914509_1_alg».proof.Proof.LibBroadcastInDim
import proofs.«112220_j17609365914509_1_alg».proof.Proof.LibHostDotTransposedRhs

noncomputable section

namespace Cert.ReferenceIdeal.EdgeValue

open Cert.ReferenceIdeal Idealize.ShloMosaic Idealize.ShloMosaic.ValueIdx Cert.EdgeLinear Cert.Lib.RowJoin

variable [Cert.ReferenceIdeal.Facts]
open Cert.ReferenceIdeal.Facts₀ Cert.ReferenceIdeal.Facts

/-- The reference's edge outputs, from the two gathered feature arrays, the weights and the bias. -/
def refEdges (a b : FVec Ideal S1600000x64 .f32) (w : FVec Ideal S64x128 .f32) (bias : FVec Ideal S64 .f32) : FVec Ideal S1600000x64 .f32 :=
  addf (Host.dotGeneral (F := Ideal) dot_S1600000x128_S64x128_S1600000x64_1_1_0_0_n_n none
      (concatenate S1600000x128 1 [⟨S1600000x64, a⟩, ⟨S1600000x64, subf b a⟩] concatenates_S1600000x64_S1600000x64_S1600000x128_d1) w)
    (broadcastInDim S1600000x64 ![0, 1] bcast_S1x64_S1600000x64_0_1 (broadcastInDim S1x64 ![1] bcast_S64_S1x64_1 bias))

/-- Entry by entry it is the edge-linear map of the same arrays. -/
theorem refEdges_eq (a b : FVec Ideal S1600000x64 .f32) (w : FVec Ideal S64x128 .f32) (bias : FVec Ideal S64 .f32) :
    refEdges a b w bias = edgeLinear a b w (fun o => bias (ix1 o)) := by
  funext i
  obtain ⟨e, o, rfl⟩ : ∃ (e : Fin 1600000) (o : Fin 64), i = ix2 e o := ⟨i 0, i 1, eq_ix2 i⟩
  rw [edgeLinear_apply]
  unfold refEdges edgeOut
  rw [addf_apply]
  refine congrArg₂ (· + ·) ?_ ?_
  · refine (Cert.Lib.HostDotTransposedRhs.hostDot_apply dot_S1600000x128_S64x128_S1600000x64_1_1_0_0_n_n rfl none _ w e o).trans ?_
    refine Finset.sum_congr rfl fun k _ => congrArg (· * w (ix2 o k)) ?_
    exact concat2_cols_apply (rfl : 128 = 64 + 64) a (subf b a) concatenates_S1600000x64_S1600000x64_S1600000x128_d1 e k
  · refine (Cert.Lib.InDim.row_spread _ bcast_S1x64_S1600000x64_0_1 e o).trans ?_
    exact Cert.Lib.InDim.vec_as_row bias bcast_S64_S1x64_1 (0 : Fin 1) o

end Cert.ReferenceIdeal.EdgeValue

end
-- ==== Proof.RefResult.lean ====
/-
  The reference program's run, with its result named.

  The reference gathers the target and neighbour rows, applies the per-edge linear map to all edges at once and takes
  the per-vertex mean. Its run ends with the result buffer at the composed term of those operations; that term is the
  per-vertex mean of the edge-linear map (`refEdges_eq`) of the gathered rows.
-/
import proofs.«112220_j17609365914509_1_alg».proof.Proof.ReferenceRun
import proofs.«112220_j17609365914509_1_alg».proof.Proof.HostSides
import proofs.«112220_j17609365914509_1_alg».proof.Proof.RefEdgeLinear

noncomputable section

namespace Cert.ReferenceIdeal.EdgeValue

open Cert.ReferenceIdeal Cert.ReferenceIdeal.Gen Idealize.ShloMosaic Idealize.ShloMosaic.TcCoe Idealize.ShloMosaic.ValueIdx Cert.EdgeLinear
open Idealize.SL.Sem

/-- Every weakly fair execution of the reference terminates with the result at the per-vertex mean of the edge-linear map
    of the gathered rows (the run's composed term, its edge outputs read by `refEdges_eq`), the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
          = vertexMean (m ((c.tc : Thread nD τ).loc main_arg2))
              (edgeLinear (E := 1600000)
                (rows (m ((c.tc : Thread nD τ).loc main_arg0)) (m ((c.tc : Thread nD τ).loc main_arg2)))
                (rows (m ((c.tc : Thread nD τ).loc main_arg0)) (m ((c.tc : Thread nD τ).loc main_arg1)))
                (m ((c.tc : Thread nD τ).loc main_arg3) : S64x128.Idx → EReal)
                (fun o => (m ((c.tc : Thread nD τ).loc main_arg4) : S64.Idx → EReal) (ix1 o)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      rw [← refEdges_eq (rows (m ((c.tc : Thread nD τ).loc main_arg0)) (m ((c.tc : Thread nD τ).loc main_arg2)))
        (rows (m ((c.tc : Thread nD τ).loc main_arg0)) (m ((c.tc : Thread nD τ).loc main_arg1)))
        (m ((c.tc : Thread nD τ).loc main_arg3)) (m ((c.tc : Thread nD τ).loc main_arg4))]
      rfl), (h c).2⟩)
    (Cert.ReferenceIdeal.ValueP.run (F := Ideal) m ρ)

end Cert.ReferenceIdeal.EdgeValue

end
-- ==== Proof.KernelPayload.lean ====
/-
  What the kernel body stores, entry by entry.

  At a grid point the body holds a block of 6400 target rows x0, the matching block of neighbour rows x1, the whole
  weight matrix x2 and the bias as a [1,64] row x3. It joins x0 with x1 − x0 along the columns, rounds both factors to
  bf16 (the identity on extended reals), multiplies rows against rows into a zero accumulator and adds the bias row spread
  over the 6400 rows. Entry (p, q) of the stored block is therefore the edge-linear output of row p of the two blocks.
-/
import proofs.«112220_j17609365914509_1_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout
import proofs.«112220_j17609365914509_1_alg».proof.Proof.EdgeLinear
import proofs.«112220_j17609365914509_1_alg».proof.Proof.LibRowJoin
import proofs.«112220_j17609365914509_1_alg».proof.Proof.LibDotTransposedRhs

noncomputable section

namespace Cert.KernelIdeal.EdgeValue

open Cert.KernelIdeal Cert.KernelIdeal.Gen Idealize.ShloMosaic Idealize.ShloMosaic.ValueIdx Cert.EdgeLinear Cert.Lib.RowJoin

/-- The stored block at (p, q): the edge-linear output of row p of the two feature blocks at channel q. -/
theorem payload_apply (x0 x1 : Vec Ideal S6400x64 .f32) (x2 : Vec Ideal S64x128 .f32) (x3 : Vec Ideal S1x64 .f32)
    (p : Fin 6400) (q : Fin 64) :
    k0_pay1 (F := Ideal) x0 x1 x2 x3 (ix2 p q)
      = edgeOut (fun c => x0 (ix2 p c)) (fun c => x1 (ix2 p c)) x2 (fun o => x3 (ix2 (0 : Fin 1) o)) q := by
  unfold k0_pay1 edgeOut
  simp only [shapeCast_self]
  refine (addf_apply _ _ _).trans ?_
  refine congrArg₂ (· + ·) ?_ ?_
  · refine (Cert.DotTransposedRhs.matmul_zero_apply dot_S6400x128_S64x128_S6400x64_1_1_0_0_n_n rfl _ _ p q).trans ?_
    refine Finset.sum_congr rfl fun k _ => congrArg (· * x2 (ix2 q k)) ?_
    rw [truncf_apply]
    refine (concat2_cols_apply (rfl : 128 = 64 + 64) _ _ concatenates_S6400x64_S6400x64_S6400x128_d1 p k).trans ?_
    simp only [shapeCast_self]
    rfl
  · exact broadcastTo_1b_ab_apply x3 broadcasts_S1x64_S6400x64 p q

end Cert.KernelIdeal.EdgeValue

end
-- ==== Proof.KernelArray.lean ====
/-
  The array the kernel's region leaves: the edge-linear map of the arrays the region finds.

  The grid has 250 points. At point t the two feature windows hold rows 6400·t … 6400·t + 6399 of the gathered target
  and neighbour arrays, the weight and bias windows hold their whole arrays at every point, and the output window's
  block is rows 6400·t … 6400·t + 6399 of the result. An output entry depends on its own row of the two feature arrays
  only, so what point t writes back is block t of ONE whole-array function, `regionOut`; the 250 blocks tile the
  1 600 000 rows (row r lies in block r / 6400), so the array ends holding that function everywhere.
-/
import proofs.«112220_j17609365914509_1_alg».proof.Proof.Gen.KernelIdeal.Frame
import proofs.«112220_j17609365914509_1_alg».proof.Proof.KernelPayload
import Idealize.ShloMosaic.Lib.Pipeline.Value

noncomputable section

namespace Cert.KernelIdeal.EdgeValue

open Cert.KernelIdeal Cert.KernelIdeal.Gen Idealize.ShloMosaic Idealize.ShloMosaic.TcCoe Idealize.ShloMosaic.ValueIdx Cert.EdgeLinear
open Idealize.SL.Sem
open Idealize.ShloMosaic.Pipeline (Dat Cfg Window)

variable (m : (ℓ : Loc nD τ sig) → Buf (Elt Ideal) ℓ)

theorem offsets_zero : (![0, 0] : Fin 2 → Nat) = fun _ => 0 := funext fun a => by fin_cases a <;> rfl

/-- The printed index maps over the grid: the feature windows and the output window are on block row t, column block 0;
    the weight and bias windows stay on their one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The edge outputs of the arrays as the region finds them: gathered target rows, gathered neighbour rows, the weights,
    and the bias read off its [1,64] row. -/
def regionOut (c : Dev nD) : S1600000x64.Idx → EReal :=
  edgeLinear (E := 1600000) (V m c main_v6 : S1600000x64.Idx → EReal) (V m c main_v13 : S1600000x64.Idx → EReal)
    (V m c main_arg3 : S64x128.Idx → EReal) (fun o => (V m c main_v14 : S1x64.Idx → EReal) (ix2 (0 : Fin 1) o))

/-- Row p of the target window's block at point t is row 6400·t + p of the gathered target array. -/
theorem target_block (c : Dev nD) (t : Fin cfg0.N) (p : Fin 6400) (k : Fin 64) (e : Fin 1600000) (he : e.val = t.val * 6400 + p.val) :
    iblk m c 0 t (ix2 p k) = (V m c main_v6 : S1600000x64.Idx → EReal) (ix2 e k) := by
  show (V m c main_v6 : S1600000x64.Idx → EReal) (((cfg0.win 0).blk t).view.emb (ix2 p k)) = _
  refine congrArg (V m c main_v6 : S1600000x64.Idx → EReal) ?_
  obtain ⟨e0, e1, -⟩ := index_maps t
  funext a; apply Fin.ext
  match a with
  | ⟨0, _⟩ => show win0_0.index t (0 : Fin 2) * 6400 + 1 * p.val = e.val; rw [e0, he]; omega
  | ⟨1, _⟩ => show win0_0.index t (1 : Fin 2) * 64 + 1 * k.val = k.val; rw [e1]; omega

/-- The same for the neighbour window. -/
theorem neighbour_block (c : Dev nD) (t : Fin cfg0.N) (p : Fin 6400) (k : Fin 64) (e : Fin 1600000) (he : e.val = t.val * 6400 + p.val) :
    iblk m c 1 t (ix2 p k) = (V m c main_v13 : S1600000x64.Idx → EReal) (ix2 e k) := by
  show (V m c main_v13 : S1600000x64.Idx → EReal) (((cfg0.win 1).blk t).view.emb (ix2 p k)) = _
  refine congrArg (V m c main_v13 : S1600000x64.Idx → EReal) ?_
  obtain ⟨-, -, e0, e1, -⟩ := index_maps t
  funext a; apply Fin.ext
  match a with
  | ⟨0, _⟩ => show win0_1.index t (0 : Fin 2) * 6400 + 1 * p.val = e.val; rw [e0, he]; omega
  | ⟨1, _⟩ => show win0_1.index t (1 : Fin 2) * 64 + 1 * k.val = k.val; rw [e1]; omega

/-- The weight window's block is the whole weight matrix at every point. -/
theorem weight_block (c : Dev nD) (t : Fin cfg0.N) : iblk m c 2 t = (V m c main_arg3 : S64x128.Idx → EReal) := by
  funext y
  show (V m c main_arg3 : S64x128.Idx → EReal) (((cfg0.win 2).blk t).view.emb y) = _
  refine congrArg (V m c main_arg3 : S64x128.Idx → EReal) ?_
  obtain ⟨-, -, -, -, e0, e1, -⟩ := index_maps t
  funext a; apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- The bias window's block is the whole [1,64] bias row at every point. -/
theorem bias_block (c : Dev nD) (t : Fin cfg0.N) : iblk m c 3 t = (V m c main_v14 : S1x64.Idx → EReal) := by
  funext y
  show (V m c main_v14 : S1x64.Idx → EReal) (((cfg0.win 3).blk t).view.emb y) = _
  refine congrArg (V m c main_v14 : S1x64.Idx → EReal) ?_
  obtain ⟨-, -, -, -, -, -, e0, e1, -⟩ := index_maps t
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- What point t writes back is block t of `regionOut`. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero offsets_zero]
  simp only [View.ld_unit_zero (S := S6400x64) offsets_zero, View.ld_unit_zero (S := S64x128) offsets_zero,
    View.ld_unit_zero (S := S1x64) offsets_zero]
  funext j
  obtain ⟨p, q, rfl⟩ : ∃ (p : Fin 6400) (q : Fin 64), j = ix2 p q := ⟨j 0, j 1, eq_ix2 j⟩
  have hN : cfg0.N = 250 := N_0
  have he : t.val * 6400 + p.val < 1600000 := by have h1 := t.isLt; have h2 := p.isLt; omega
  obtain ⟨-, -, -, -, -, -, -, -, i40, i41⟩ := index_maps t
  have h4 : ((cfg0.win 4).blk t).view.emb (ix2 p q) = (ix2 (⟨t.val * 6400 + p.val, he⟩ : Fin 1600000) q : S1600000x64.Idx) := by
    funext a; apply Fin.ext
    match a with
    | ⟨0, _⟩ => show win0_4.index t (0 : Fin 2) * 6400 + 1 * p.val = t.val * 6400 + p.val; rw [i40]; omega
    | ⟨1, _⟩ => show win0_4.index t (1 : Fin 2) * 64 + 1 * q.val = q.val; rw [i41]; omega
  show k0_pay1 (F := Ideal) (iblk m c 0 t) (iblk m c 1 t) (iblk m c 2 t) (iblk m c 3 t) (ix2 p q)
    = regionOut m c (((cfg0.win 4).blk t).view.emb (ix2 p q))
  rw [h4]
  refine (payload_apply (iblk m c 0 t) (iblk m c 1 t) (iblk m c 2 t) (iblk m c 3 t) p q).trans ?_
  unfold regionOut
  rw [edgeLinear_apply]
  have r0 : (fun cc : Fin 64 => iblk m c 0 t (ix2 p cc))
      = fun cc : Fin 64 => (V m c main_v6 : S1600000x64.Idx → EReal) (ix2 (⟨t.val * 6400 + p.val, he⟩ : Fin 1600000) cc) :=
    funext fun cc => target_block m c t p cc _ rfl
  have r1 : (fun cc : Fin 64 => iblk m c 1 t (ix2 p cc))
      = fun cc : Fin 64 => (V m c main_v13 : S1600000x64.Idx → EReal) (ix2 (⟨t.val * 6400 + p.val, he⟩ : Fin 1600000) cc) :=
    funext fun cc => neighbour_block m c t p cc _ rfl
  rw [r0, r1, weight_block m c t, bias_block m c t]

/-- An index of the result array is in point t's block iff each coordinate is in the block's range on its axis. -/
theorem mem_block (t : Fin cfg0.N) (i : S1600000x64.Idx) :
    i ∈ ((cfg0.win 4).blk t).view.set ↔ ∀ a : Fin 2, win0_4.index t a * S6400x64.size a ≤ (i a).val ∧ (i a).val < win0_4.index t a * S6400x64.size a + S6400x64.size a := by
  show i ∈ ((View.whole main_v15).slice (win0_4.rect t)).set ↔ _
  rw [View.set_slice_whole, Rect.mem_set_unit]
  exact Iff.rfl

/-- Every row of the result lies in the block of the point row / 6400, which writes back. -/
theorem covered (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 250 := N_0
  have ht : (i 0).val / 6400 < cfg0.N := by rw [hN]; omega
  obtain ⟨-, -, -, -, -, -, -, -, i40, i41⟩ := index_maps ⟨(i 0).val / 6400, ht⟩
  refine ⟨⟨(i 0).val / 6400, ht⟩, flush0_4 _, ?_⟩
  rw [mem_block]
  intro a
  match a with
  | ⟨0, _⟩ =>
    show win0_4.index ⟨(i 0).val / 6400, ht⟩ (0 : Fin 2) * 6400 ≤ (i 0).val ∧ (i 0).val < win0_4.index ⟨(i 0).val / 6400, ht⟩ (0 : Fin 2) * 6400 + 6400
    rw [i40]
    show (i 0).val / 6400 * 6400 ≤ (i 0).val ∧ (i 0).val < (i 0).val / 6400 * 6400 + 6400
    omega
  | ⟨1, _⟩ =>
    show win0_4.index ⟨(i 0).val / 6400, ht⟩ (1 : Fin 2) * 64 ≤ (i 1).val ∧ (i 1).val < win0_4.index ⟨(i 0).val / 6400, ht⟩ (1 : Fin 2) * 64 + 64
    rw [i41]
    omega

/-- The result array after the region: the edge-linear map of the arrays the region finds. -/
theorem region_array (c : Dev nD) : (dats m 0 c).arrAt 4 cfg0.N = regionOut m c :=
  (dats m 0 c).arrAt_eq_of_cover 4 (regionOut m c) (fun t _ => flushed_eq m c t) covered

end Cert.KernelIdeal.EdgeValue

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.KernelRun.lean ====
/-
  The kernel program's run, with its result named.

  Around the region the program does host work: before it, the two row gathers and the bias laid out as a [1,64] row;
  after it, the per-vertex mean. The region's result array is the edge-linear map of what the region finds
  (`region_array`), what it finds are the gathered rows of the argument arrays, and the lines after the region read that
  array and the target vector only. So the program ends with the per-vertex mean of the edge-linear map of the gathered
  rows.
-/
import proofs.«112220_j17609365914509_1_alg».proof.Proof.Gen.KernelIdeal.Frame
import proofs.«112220_j17609365914509_1_alg».proof.Proof.KernelArray
import proofs.«112220_j17609365914509_1_alg».proof.Proof.HostSides
import Idealize.ShloMosaic.Lib.StableHlo.Run
import Idealize.ShloMosaic.Lib.ValueLayout
import proofs.«112220_j17609365914509_1_alg».proof.Proof.LibHostCalls

noncomputable section

namespace Cert.KernelIdeal.EdgeValue

open Cert.KernelIdeal Cert.KernelIdeal.Gen Idealize.ShloMosaic Idealize.ShloMosaic.TcCoe Idealize.ShloMosaic.ValueIdx Cert.EdgeLinear
open Idealize.SL.Sem Idealize.ShloMosaic.StableHlo
open Idealize.ShloMosaic.Pipeline (Dat Cfg Window)
open Cert.ReferenceIdeal.EdgeValue (rows vertexMean)

variable (m : (ℓ : Loc nD τ sig) → Buf (Elt Ideal) ℓ) (ρ : Dev nD → PrngReg)

/-- The region finds the target rows gathered from the feature matrix. -/
theorem entry_targets (c : Dev nD) :
    (V m c main_v6 : S1600000x64.Idx → EReal)
      = rows (m ((c.tc : Thread nD τ).loc main_arg0)) (m ((c.tc : Thread nD τ).loc main_arg2)) := by
  show StableHlo.after hostOps0 (fun b => m (c, b)) (Proc.devRef .tc main_v6) = _
  after_results
  rfl

/-- The region finds the neighbour rows gathered from the feature matrix. -/
theorem entry_neighbours (c : Dev nD) :
    (V m c main_v13 : S1600000x64.Idx → EReal)
      = rows (m ((c.tc : Thread nD τ).loc main_arg0)) (m ((c.tc : Thread nD τ).loc main_arg1)) := by
  show StableHlo.after hostOps0 (fun b => m (c, b)) (Proc.devRef .tc main_v13) = _
  after_results
  rfl

/-- The region finds the bias as a [1,64] row: entry (0, o) is the bias of channel o. -/
theorem entry_bias (c : Dev nD) (o : Fin 64) :
    (V m c main_v14 : S1x64.Idx → EReal) (ix2 (0 : Fin 1) o) = (m ((c.tc : Thread nD τ).loc main_arg4) : S64.Idx → EReal) (ix1 o) := by
  have e : (V m c main_v14 : S1x64.Idx → EReal)
      = shapeCast S1x64 (m ((c.tc : Thread nD τ).loc main_arg4) : S64.Idx → EReal) shapeCasts_S64_S1x64 := by
    show StableHlo.after hostOps0 (fun b => m (c, b)) (Proc.devRef .tc main_v14) = _
    after_results
    rfl
  rw [e]
  exact shapeCast_a_1a_apply _ shapeCasts_S64_S1x64 (0 : Fin 1) o

/-- The edge outputs the region leaves, in terms of the argument arrays. -/
theorem regionOut_eq (c : Dev nD) :
    regionOut m c = edgeLinear (E := 1600000)
      (rows (m ((c.tc : Thread nD τ).loc main_arg0)) (m ((c.tc : Thread nD τ).loc main_arg2)))
      (rows (m ((c.tc : Thread nD τ).loc main_arg0)) (m ((c.tc : Thread nD τ).loc main_arg1)))
      (m ((c.tc : Thread nD τ).loc main_arg3) : S64x128.Idx → EReal)
      (fun o => (m ((c.tc : Thread nD τ).loc main_arg4) : S64.Idx → EReal) (ix1 o)) := by
  unfold regionOut
  rw [entry_targets m c, entry_neighbours m c, V_main_arg3 m c]
  exact congrArg _ (funext fun o => entry_bias m c o)

/-- The per-vertex mean spelt over this program's own shape records (the reference's `vertexMean` is the same function:
    `vertexMeanK_eq`). -/
def vertexMeanK (tgt : (⟨S1600000, .i32⟩ : BufTy).Contents (Elt Ideal)) (y : (⟨S1600000x64, .f32⟩ : BufTy).Contents (Elt Ideal)) :
    (⟨S100000x64, .f32⟩ : BufTy).Contents (Elt Ideal) :=
  select (broadcastInDim S100000x64 ![0, 1] bcast_S100000x1_S100000x64_0_1 (cmpf (F := Ideal) .ogt (broadcastInDim S100000x1 ![0] bcast_S100000_S100000x1_0 (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 tgt) (broadcastInDim S1600000 ![] bcast_S_S1600000 (constant (F := Ideal) S_ .f32 0x3F800000#32)))) (broadcastInDim S100000x1 ![] bcast_S_S100000x1 (constant (F := Ideal) S_ .f32 0x00000000#32)))) (Host.divf (F := Ideal) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 tgt) y) (broadcastInDim S100000x64 ![0, 1] bcast_S100000x1_S100000x64_0_1 (maximumf (F := Ideal) (broadcastInDim S100000x1 ![0] bcast_S100000_S100000x1_0 (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 tgt) (broadcastInDim S1600000 ![] bcast_S_S1600000 (constant (F := Ideal) S_ .f32 0x3F800000#32)))) (broadcastInDim S100000x1 ![] bcast_S_S100000x1 (constant (F := Ideal) S_ .f32 0x3F800000#32))))) (broadcastInDim S100000x64 ![] bcast_S_S100000x64 (id (constant (F := Ideal) S_ .f32 0x00000000#32)))

/-- The two programs' records hold the same dimension numbers, so the two spellings are one function. -/
theorem vertexMeanK_eq (tgt : (⟨S1600000, .i32⟩ : BufTy).Contents (Elt Ideal)) (y : (⟨S1600000x64, .f32⟩ : BufTy).Contents (Elt Ideal)) :
    vertexMeanK tgt y = vertexMean tgt y := rfl

/-- The called `where` function reads its mask, its quotient and its zero through buffers typed by the values they hold,
    and writes its result into such a buffer; each of these transports is along an equation between equal types, so
    the call computes the plain `select` of the plain operands. -/
theorem where_call (k : (⟨S100000x1, .i1⟩ : BufTy).Contents (Elt Ideal)) (v : (⟨S100000x64, .f32⟩ : BufTy).Contents (Elt Ideal))
    (z : (⟨S_, .f32⟩ : BufTy).Contents (Elt Ideal)) :
    (TRef.of (sig := sig) (T := ⟨S100000x64, .f32⟩) main_v30).toBuf
        (select (broadcastInDim S100000x64 ![0, 1] bcast_S100000x1_S100000x64_0_1
            ((TRef.of (sig := sig) (T := ⟨S100000x1, .i1⟩) main_v25).ofBuf k))
          ((TRef.of (sig := sig) (T := ⟨S100000x64, .f32⟩) main_v29).ofBuf v)
          (broadcastInDim S100000x64 ![] bcast_S_S100000x64 (id ((TRef.of (sig := sig) (T := ⟨S_, .f32⟩) main_cst_7).ofBuf z))))
      = select (broadcastInDim S100000x64 ![0, 1] bcast_S100000x1_S100000x64_0_1 k) v
          (broadcastInDim S100000x64 ![] bcast_S_S100000x64 (id z)) := rfl

set_option maxHeartbeats 2000000 in
/-- What the lines after the region leave in the result buffer: the per-vertex mean of the region's array. -/
theorem tail_value (c : Dev nD) :
    Pipeline.afterTail₀ cfgs (dats m) 0 (V0 m) [hostOps1, hostOps1_1] c main_v30
      = vertexMean (m ((c.tc : Thread nD τ).loc main_arg2)) (regionOut m c) := by
  have hY : Pipeline.withArrays (cfgs 0).spec c (V0 m c) (fun w => (dats m 0 c).arrAt w (cfgs 0).N) (Proc.devRef .tc main_v15)
      = regionOut m c :=
    (Pipeline.withArrays_arr spec0 launch0.win.arr_inj c (V0 m c) (fun w => (dats m 0 c).arrAt w cfg0.N) 4).trans (region_array m c)
  have hT : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by decide)).trans (V_main_arg2 m c)
  unfold Pipeline.afterTail₀
  simp only [hostOps1, hostOps1_1, List.flatten_cons, List.flatten_nil, List.append_nil, List.cons_append, List.nil_append]
  after_results_simp
  rw [hT, hY]
  simp only [Cert.Lib.HostCalls.ofBuf_toBuf]
  refine (where_call _ _ _).trans ?_
  rw [← vertexMeanK_eq]
  unfold vertexMeanK
  rfl

/-- Every weakly fair execution of the kernel program terminates with the result at the per-vertex mean of the edge-linear
    map of the gathered rows, and the arguments unchanged: the region's frame run, its result read through the lines after
    the region. -/
theorem run : θ_run defs (onTc (τ := τ) (main (F := Ideal))) ⟨m, fun _ => 0, ρ⟩ fun r => ∀ c : Dev nD,
      r.2.mem ((c.tc : Thread nD τ).loc main_v30)
          = vertexMean (m ((c.tc : Thread nD τ).loc main_arg2))
              (edgeLinear (E := 1600000)
                (rows (m ((c.tc : Thread nD τ).loc main_arg0)) (m ((c.tc : Thread nD τ).loc main_arg2)))
                (rows (m ((c.tc : Thread nD τ).loc main_arg0)) (m ((c.tc : Thread nD τ).loc main_arg1)))
                (m ((c.tc : Thread nD τ).loc main_arg3) : S64x128.Idx → EReal)
                (fun o => (m ((c.tc : Thread nD τ).loc main_arg4) : S64.Idx → EReal) (ix1 o)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v30 (Pipeline.mem_restRefs_of main_v30 (by decide) (by decide))).trans
        ((tail_value m c).trans (congrArg (vertexMean (m ((c.tc : Thread nD τ).loc main_arg2))) (regionOut_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.EdgeValue

end
-- ==== Proof.lean ====
/-
  An edge convolution with mean aggregation: the kernel program against its reference, over the extended reals.

  Both programs gather, for each of the 1 600 000 edges, the feature rows of the edge's target and of its neighbour
  (64 channels each), map the row [ target ‖ neighbour − target ] through a 64 × 128 weight matrix and add a bias, and
  then give each of the 100 000 vertices the mean of the outputs of the edges that target it (zero where there are none).
  They differ only in the middle step. The reference does it for all edges at once with one contraction; the kernel
  walks 250 blocks of 6400 edges, rounds both factors of the product to bf16 and multiplies on the matrix unit into a
  zero accumulator. On extended reals the rounding is the identity and each output entry is the same sum over the 128
  columns in the same order, so the two edge-output arrays are one function of the gathered rows (`edgeLinear`), and the
  shared host work before and after it is never opened. No law that fails at an infinity is used, so finiteness of the
  inputs is not needed for the values; the ideal pass rewrote nothing, so there is nothing to preserve.
-/
import proofs.«112220_j17609365914509_1_alg».proof.Defs
import proofs.«112220_j17609365914509_1_alg».proof.Proof.Gen.Kernel
import proofs.«112220_j17609365914509_1_alg».proof.Proof.Gen.Kernel.Skeleton
import proofs.«112220_j17609365914509_1_alg».proof.Proof.Gen.Kernel.Launch
import proofs.«112220_j17609365914509_1_alg».proof.Proof.Gen.Kernel.Points
import proofs.«112220_j17609365914509_1_alg».proof.Proof.Gen.Kernel.Frame
import proofs.«112220_j17609365914509_1_alg».proof.Proof.Gen.KernelIdeal
import proofs.«112220_j17609365914509_1_alg».proof.Proof.Gen.KernelIdeal.Skeleton
import proofs.«112220_j17609365914509_1_alg».proof.Proof.Gen.KernelIdeal.Launch
import proofs.«112220_j17609365914509_1_alg».proof.Proof.Gen.KernelIdeal.Points
import proofs.«112220_j17609365914509_1_alg».proof.Proof.Gen.KernelIdeal.Frame
import proofs.«112220_j17609365914509_1_alg».proof.Proof.Gen.ReferenceIdeal
import proofs.«112220_j17609365914509_1_alg».proof.Proof.Gen.Pre_finite_inputs
import proofs.«112220_j17609365914509_1_alg».proof.Proof.ReferenceRun
import proofs.«112220_j17609365914509_1_alg».proof.Proof.RefResult
import proofs.«112220_j17609365914509_1_alg».proof.Proof.KernelRun
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read on extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs end with the per-vertex mean of the edge-linear map of the
    gathered rows: the kernel program by its region's array and the lines around it, the reference by its run. -/
theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun _ h c => ⟨(h c).1.trans ?_, (h c).2⟩)
    (Cert.ReferenceIdeal.EdgeValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
